-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 88
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S256x128, .f32⟩
  | .hbm, ⟨47, _⟩ => ⟨S100000x128, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  concatenates_S256x64_S256x64_S256x128_d1 : Shape.Concatenates [S256x64, S256x64] S256x128 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  slices_S100000x128_S100000x64_0_0 : S100000x128.Slices ![0, 0] S100000x64
  slices_S100000x128_S100000x64_0_64 : S100000x128.Slices ![0, 64] S100000x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x128_S5000x128_1_0_0_1_n_n_wf : DotDims.WF S5000x256 S256x128 S5000x128 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x64, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S3300000, .f32⟩
  | .hbm, ⟨69, _⟩ => ⟨S_, .f32⟩
  | .hbm, ⟨70, _⟩ => ⟨S100000, .f32⟩
  | .hbm, ⟨71, _⟩ => ⟨S3300000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S3300000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S3300000, .f32⟩
  | .hbm, ⟨100, _⟩ => ⟨S_, .i32⟩
  | .hbm, ⟨101, _⟩ => ⟨S3300000, .i32⟩
  | .hbm, ⟨102, _⟩ => ⟨S3300000, .i1⟩
  | .hbm, ⟨103, _⟩ => ⟨S_, .i32⟩
  | .hbm, ⟨104, _⟩ => ⟨S3300000, .i32⟩
  | .hbm, ⟨105, _⟩ => ⟨S3300000, .i32⟩
  | .hbm, ⟨106, _⟩ => ⟨S3300000, .i32⟩
  | .hbm, ⟨107, _⟩ => ⟨S3300000x1, .i32⟩
  | .hbm, ⟨108, _⟩ => ⟨S3300000x64, .f32⟩
  | .hbm, ⟨109, _⟩ => ⟨S3300000x1, .f32⟩
  | .hbm, ⟨110, _⟩ => ⟨S3300000x64, .f32⟩
  | .hbm, ⟨111, _⟩ => ⟨S3300000x64, .f32⟩
  | .hbm, ⟨112, _⟩ => ⟨S_, .f32⟩
  | .hbm, ⟨113, _⟩ => ⟨S100000x64, .f32⟩
  | .hbm, ⟨114, _⟩ => ⟨S3300000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_c_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GraphTail.lean ====
/-
  What both programs do with a table of transformed node features: one graph-convolution layer's propagation.

  From the edge list `ei` (two rows of node numbers, sources above targets) each program makes the same things,
  by the same operations, and this file names them once so that neither side ever has to be opened:

    * `withLoops`  — one row of the edge list followed by the node numbers 0 … n-1 (one self-loop per node);
    * `wrapColumn` — node numbers with negatives wrapped once by n, viewed as a column (the form a row gather takes);
    * `degree`     — for every node the number of edges that end in it, a sum of ones scattered at the targets;
    * `invSqrtDeg` — `1/√degree` where the degree is positive and `0` elsewhere;
    * `edgeCoeff`  — per edge, the product of that quantity at the edge's source and at its target;
    * `propagate`  — rows of the feature table `h` gathered at the sources, each multiplied by its edge's
                      coefficient, summed into the rows of the targets, plus the bias vector on every row.

  `layer h ei b` is `propagate` with everything made from `ei`. The certificate's only mathematics is upstream of
  this file: which table `h` goes in. The two programs feed it tables that are equal entry by entry, so their
  results are `layer` of equal arguments.
-/
import proofs.«170789_j29721173688331_1_alg».proof.KernelIdeal
import proofs.«170789_j29721173688331_1_alg».proof.Proof.Gen.KernelIdeal

noncomputable section

namespace Cert.GraphTail

open Idealize.ShloMosaic Cert.KernelIdeal Cert.KernelIdeal.Gen

variable {F : FTy → Type} [FloatOps F]

/-- One row of the edge list followed by the node numbers `0 … n-1`. -/
def withLoops (row : Fin 2 → Nat) (hs : S2x3200000.Slices row S1x3200000)
    (ei : (⟨S2x3200000, .i32⟩ : BufTy).Contents (Elt F)) : (⟨S3300000, .i32⟩ : BufTy).Contents (Elt F) :=
  concatenate S3300000 0 [⟨S3200000, (shapeCast _ (extractStridedSlice S1x3200000 row ei hs) shapeCasts_S1x3200000_S3200000)⟩, ⟨S100000, (iotaInDim S100000 32 0)⟩] concatenates_S3200000_S100000_S3300000_d0

/-- The sources: row 0 of the edge list, then one loop per node. -/
def sources (ei : (⟨S2x3200000, .i32⟩ : BufTy).Contents (Elt F)) : (⟨S3300000, .i32⟩ : BufTy).Contents (Elt F) :=
  withLoops (F := F) ![0, 0] slices_S2x3200000_S1x3200000_0_0 ei

/-- The targets: row 1 of the edge list, then one loop per node. -/
def targets (ei : (⟨S2x3200000, .i32⟩ : BufTy).Contents (Elt F)) : (⟨S3300000, .i32⟩ : BufTy).Contents (Elt F) :=
  withLoops (F := F) ![1, 0] slices_S2x3200000_S1x3200000_1_0 ei

/-- Node numbers with a negative one wrapped once by the number of nodes, as a column. -/
def wrapColumn (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- For every node, the number of edges ending in it: ones summed at the targets. -/
def degree (dst : (⟨S3300000, .i32⟩ : BufTy).Contents (Elt F)) : (⟨S100000, .f32⟩ : BufTy).Contents (Elt F) :=
  Host.scatterAdd (F := F) scatter_S100000_S3300000x1_S3300000_n_0_0_1 (broadcastInDim S100000 ![] bcast_S_S100000 (constant (F := F) S_ .f32 0x00000000#32)) (broadcastInDim S3300000x1 ![0] bcast_S3300000_S3300000x1_0 dst) (broadcastInDim S3300000 ![] bcast_S_S3300000 (constant (F := F) S_ .f32 0x3F800000#32))

/-- `1/√deg` where the degree is positive, `0` elsewhere. -/
def invSqrtDeg (deg : (⟨S100000, .f32⟩ : BufTy).Contents (Elt F)) : (⟨S100000, .f32⟩ : BufTy).Contents (Elt F) :=
  select (cmpf (F := F) .ogt deg (broadcastInDim S100000 ![] bcast_S_S100000 (constant (F := F) S_ .f32 0x00000000#32))) (Host.rsqrt (F := F) deg) (broadcastInDim S100000 ![] bcast_S_S100000 (id (constant (F := F) S_ .f32 0x00000000#32)))

/-- Per edge: that quantity at the edge's source times the same at its target. -/
def edgeCoeff (src dst : (⟨S3300000, .i32⟩ : BufTy).Contents (Elt F)) : (⟨S3300000, .f32⟩ : BufTy).Contents (Elt F) :=
  mulf (F := F) (Host.gather gather_S100000_S3300000x1_S3300000_n_0_n_n_0_1_1 (invSqrtDeg (F := F) (degree (F := F) dst)) (wrapColumn (F := F) src)) (Host.gather gather_S100000_S3300000x1_S3300000_n_0_n_n_0_1_1 (invSqrtDeg (F := F) (degree (F := F) dst)) (wrapColumn (F := F) dst))

/-- Rows of `h` gathered at the sources, scaled edge by edge, summed at the targets, plus the bias on every row. -/
def propagate (h : (⟨S100000x64, .f32⟩ : BufTy).Contents (Elt F)) (src dst : (⟨S3300000, .i32⟩ : BufTy).Contents (Elt F))
    (coeff : (⟨S3300000, .f32⟩ : BufTy).Contents (Elt F)) (b : (⟨S64, .f32⟩ : BufTy).Contents (Elt F)) :
    (⟨S100000x64, .f32⟩ : BufTy).Contents (Elt F) :=
  addf (F := F) (Host.scatterAdd (F := F) scatter_S100000x64_S3300000x1_S3300000x64_1_0_0_1 (broadcastInDim S100000x64 ![] bcast_S_S100000x64 (constant (F := F) S_ .f32 0x00000000#32)) (broadcastInDim S3300000x1 ![0] bcast_S3300000_S3300000x1_0 dst) (mulf (F := F) (Host.gather gather_S100000x64_S3300000x1_S3300000x64_1_0_n_n_0_1_164 h (wrapColumn (F := F) src)) (broadcastInDim S3300000x64 ![0, 1] bcast_S3300000x1_S3300000x64_0_1 (broadcastInDim S3300000x1 ![0] bcast_S3300000_S3300000x1_0 coeff)))) (broadcastInDim S100000x64 ![0, 1] bcast_S1x64_S100000x64_0_1 (broadcastInDim S1x64 ![1] bcast_S64_S1x64_1 b))

/-- One layer's propagation of the table `h` over the edge list `ei` with bias `b`. -/
def layer (h : (⟨S100000x64, .f32⟩ : BufTy).Contents (Elt F)) (ei : (⟨S2x3200000, .i32⟩ : BufTy).Contents (Elt F))
    (b : (⟨S64, .f32⟩ : BufTy).Contents (Elt F)) : (⟨S100000x64, .f32⟩ : BufTy).Contents (Elt F) :=
  propagate (F := F) h (sources (F := F) ei) (targets (F := F) ei) (edgeCoeff (F := F) (sources (F := F) ei) (targets (F := F) ei)) b

end Cert.GraphTail

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«170789_j29721173688331_1_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.RefValue.lean ====
/-
  The reference program's two results as `layer` of a matrix product.

  The reference computes, for each of the two weight matrices, the product of the node features with that matrix and
  then — by the very operations the kernel's program applies to the halves of its one product — the propagation of that
  table over the edge list with the matching bias. So its first result is `layer (x · W_mu) ei b_mu` and its second
  `layer (x · W_ls) ei b_ls`, where at the extended reals the host's product is `prod`, entry by entry.
-/
import proofs.«170789_j29721173688331_1_alg».proof.Proof.RefRunPatched
import proofs.«170789_j29721173688331_1_alg».proof.Proof.GraphTail
import proofs.«170789_j29721173688331_1_alg».proof.Proof.LibMatProd

set_option maxRecDepth 16384

noncomputable section

namespace Cert.RefValue

open Idealize.ShloMosaic Idealize.ShloMosaic.TcCoe Idealize.SL.Sem
open Cert.ReferenceIdeal Cert.ReferenceIdeal.ValueP Cert.MatProd Cert.RowLayers

/-- The reference's product contracts the features' columns against the weights' rows. -/
theorem rowsTimesCols : RowsTimesCols dot_S100000x256_S256x64_S100000x64_1_0_0_1_n_n :=
  ⟨rfl, rfl, fun _ _ => rfl, fun _ _ => rfl, fun _ _ => rfl, fun _ _ => rfl⟩

section AnyInstance
variable {F : FTy → Type} [FloatOps F]
variable (m : (ℓ : Loc nD τ sig) → Buf (Elt F) ℓ)

/-- The first result is the propagation of the product with the first weight matrix. -/
theorem first_eq_layer (c : Dev nD) :
    res_main_v46 m c = Cert.GraphTail.layer (F := F)
      (Host.dotGeneral (F := F) dot_S100000x256_S256x64_S100000x64_1_0_0_1_n_n none (m ((c : Thread nD τ).loc main_arg0)) (m ((c : Thread nD τ).loc main_arg2)))
      (m ((c : Thread nD τ).loc main_arg1)) (m ((c : Thread nD τ).loc main_arg3)) := by
  unfold res_main_v46
  rfl

/-- The second result is the propagation of the product with the second weight matrix. -/
theorem second_eq_layer (c : Dev nD) :
    res_main_v86 m c = Cert.GraphTail.layer (F := F)
      (Host.dotGeneral (F := F) dot_S100000x256_S256x64_S100000x64_1_0_0_1_n_n none (m ((c : Thread nD τ).loc main_arg0)) (m ((c : Thread nD τ).loc main_arg4)))
      (m ((c : Thread nD τ).loc main_arg1)) (m ((c : Thread nD τ).loc main_arg5)) := by
  unfold res_main_v86
  rfl

end AnyInstance

variable (m : (ℓ : Loc nD τ sig) → Buf (Elt Ideal) ℓ)

/-- Over the extended reals: the first result. -/
theorem first (c : Dev nD) :
    res_main_v46 m c = Cert.GraphTail.layer (F := Ideal)
      (prod (m ((c : Thread nD τ).loc main_arg0)) (m ((c : Thread nD τ).loc main_arg2)))
      (m ((c : Thread nD τ).loc main_arg1)) (m ((c : Thread nD τ).loc main_arg3)) := by
  rw [first_eq_layer, dotGeneral_eq_prod rowsTimesCols]

/-- Over the extended reals: the second result. -/
theorem second (c : Dev nD) :
    res_main_v86 m c = Cert.GraphTail.layer (F := Ideal)
      (prod (m ((c : Thread nD τ).loc main_arg0)) (m ((c : Thread nD τ).loc main_arg4)))
      (m ((c : Thread nD τ).loc main_arg1)) (m ((c : Thread nD τ).loc main_arg5)) := by
  rw [second_eq_layer, dotGeneral_eq_prod rowsTimesCols]

end Cert.RefValue

end
-- ==== Proof.KernelProduct.lean ====
/-
  The array the kernel's one region leaves: the whole product `x · w`, read off the region's run.

  The region walks the 100000 rows of `x` in 20 blocks of 5000. At block `t` it loads rows
  `5000·t … 5000·t + 4999` of `x` and the whole `256 × 128` matrix `w`, multiplies them into a zero accumulator and
  writes the `5000 × 128` result back as rows `5000·t … 5000·t + 4999` of the output. Entry `(r, q)` of a product
  needs row `r` of the left factor only, so block `t` of the output is block `t` of `prod x w`; the 20 blocks cover
  every row (row `r` lies in block `r / 5000`), so the output array IS `prod x w`.
-/
import proofs.«170789_j29721173688331_1_alg».proof.Proof.Gen.KernelIdeal.Frame
import proofs.«170789_j29721173688331_1_alg».proof.Proof.LibMatProd
import Idealize.ShloMosaic.Lib.Pipeline.Value

set_option maxRecDepth 16384

noncomputable section

namespace Cert.KernelProduct

open Cert.KernelIdeal Cert.KernelIdeal.Gen Idealize.ShloMosaic Idealize.ShloMosaic.TcCoe Idealize.SL.Sem
open Idealize.ShloMosaic.ValueIdx Cert.MatProd Cert.RowLayers
open Idealize.ShloMosaic.Pipeline (Dat)

variable (m : (ℓ : Loc nD τ sig) → Buf (Elt Ideal) ℓ)

/-- The block product's dimension numbers contract the left factor's columns against the right factor's rows. -/
theorem block_rowsTimesCols : RowsTimesCols dot_S5000x256_S256x128_S5000x128_1_0_0_1_n_n :=
  ⟨rfl, rfl, fun _ _ => rfl, fun _ _ => rfl, fun _ _ => rfl, fun _ _ => rfl⟩

theorem zero_offsets : (![0, 0] : Fin 2 → Nat) = fun _ => 0 := funext fun a => by fin_cases a <;> rfl

/-- What the body stores is the product of the two blocks it loaded (a change of float format is the identity
    on extended reals; the accumulator it adds to is zero). -/
theorem payload_eq (x0 : Vec Ideal S5000x256 .f32) (x1 : Vec Ideal S256x128 .f32) :
    k0_pay1 (F := Ideal) x0 x1 = prod x0 x1 := by
  unfold k0_pay1
  dsimp only
  rw [shapeCast_self]
  exact matmul_zero_eq_prod block_rowsTimesCols none _ _

/-- The printed index maps, decided over the 20 points: the left factor's block and the output's block are block
    `t` of the rows and the only block of the columns; the right factor's block is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The right factor's block at any point is the whole matrix. -/
theorem right_block (c : Dev nD) (t : Fin cfg0.N) : iblk m c 1 t = V m c main_v30 := by
  obtain ⟨-, -, e2, e3, -, -⟩ := index_facts t
  funext y
  show V m c main_v30 (((cfg0.win 1).blk t).view.emb y) = V m c main_v30 y
  refine congrArg (V m c main_v30) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The left factor's block at point `t` holds rows `5000·t …` of `x`. -/
theorem left_block (c : Dev nD) (t : Fin cfg0.N) (y : S5000x256.Idx) (z : S100000x256.Idx)
    (h0 : (z 0).val = t.val * 5000 + (y 0).val) (h1 : (z 1).val = (y 1).val) :
    iblk m c 0 t y = V m c main_arg0 z := by
  obtain ⟨e0, e1, -, -, -, -⟩ := index_facts t
  show V m c main_arg0 (((cfg0.win 0).blk t).view.emb y) = V m c main_arg0 z
  refine congrArg (V m c main_arg0) (funext fun a => Fin.ext ?_)
  match a with
  | ⟨0, _⟩ => show win0_0.index t (0 : Fin 2) * 5000 + 1 * (y 0).val = (z 0).val; omega
  | ⟨1, _⟩ => show win0_0.index t (1 : Fin 2) * 256 + 1 * (y 1).val = (z 1).val; omega

/-- WHAT POINT `t` WRITES BACK is block `t` of the whole product. -/
theorem flushed_eq (c : Dev nD) (t : Fin cfg0.N) :
    (dats m 0 c).flushed 2 t
      = ((cfg0.win 2).blk t).view.read (Elt Ideal) (prod (V m c main_arg0) (V m c main_v30)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x128) zero_offsets]
  rw [payload_eq, right_block]
  obtain ⟨-, -, -, -, e4, e5⟩ := index_facts t
  funext j
  show prod (iblk m c 0 t) (V m c main_v30) j
    = prod (V m c main_arg0) (V m c main_v30) (((cfg0.win 2).blk t).view.emb j)
  refine prod_of_row_block (V m c main_arg0) (V m c main_v30) (iblk m c 0 t) (t.val * 5000)
    (fun y z h0 h1 => left_block m c t y z h0 h1) j (((cfg0.win 2).blk t).view.emb j) ?_ ?_
  · show win0_2.index t (0 : Fin 2) * 5000 + 1 * (j 0).val = t.val * 5000 + (j 0).val; omega
  · show win0_2.index t (1 : Fin 2) * 128 + 1 * (j 1).val = (j 1).val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array lies in some point's block: row `r` in block `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block]
  obtain ⟨-, -, -, -, e4, e5⟩ := index_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE ARRAY after the region: the whole product of `x` with the matrix the region was handed. -/
theorem final (c : Dev nD) : (dats m 0 c).arrAt 2 cfg0.N = prod (V m c main_arg0) (V m c main_v30) :=
  (dats m 0 c).arrAt_eq_of_cover 2 (prod (V m c main_arg0) (V m c main_v30)) (fun t _ => flushed_eq m c t) covered

end Cert.KernelProduct

end
-- ==== Proof.KernelHost.lean ====
/-
  The host lines of the kernel's program around its one region, read as functions of the argument arrays.

  Before the region the program makes, from the edge list alone, the sources and the targets (each a row of the edge
  list followed by one loop per node) and the per-edge coefficients, and sets the two weight matrices side by side as
  one `256 × 128` matrix for the region to multiply by. After the region it cuts the region's `100000 × 128` output
  into its two halves of 64 columns and runs the same propagation on each half, with the first bias vector on the
  left half and the second on the right. Nothing here is about numbers: each line's result is its operation applied
  to the results of earlier lines, and the statements below say which.
-/
import proofs.«170789_j29721173688331_1_alg».proof.Proof.Gen.KernelIdeal.Frame
import proofs.«170789_j29721173688331_1_alg».proof.Proof.GraphTail
import Idealize.ShloMosaic.Lib.StableHlo.Run

set_option maxRecDepth 16384

noncomputable section

namespace Cert.KernelHost

open Cert.KernelIdeal Cert.KernelIdeal.Gen Idealize.ShloMosaic Idealize.ShloMosaic.TcCoe Idealize.SL.Sem
open Idealize.ShloMosaic.StableHlo Cert.GraphTail

variable {F : FTy → Type} [FloatOps F]

/-! ## The lines before the region, over any launch contents -/

section Before
variable (M : Valuation τ sig (Elt F))

/-- All the lines before the region, in order. -/
abbrev before : List (HloOp τ sig (Elt F)) := List.flatten [hostOps0, hostOps0_1, hostOps0_2]

theorem before_sources :
    (StableHlo.after (before (F := F)) M (Proc.devRef .tc main_v3) : (⟨S3300000, .i32⟩ : BufTy).Contents (Elt F))
      = sources (F := F) (M (Proc.devRef .tc main_arg1)) := by
  simp only [before, hostOps0, hostOps0_1, hostOps0_2, List.flatten_cons, List.flatten_nil, List.append_nil, List.cons_append, List.nil_append]
  after_results_simp
  rfl

theorem before_targets :
    (StableHlo.after (before (F := F)) M (Proc.devRef .tc main_v6) : (⟨S3300000, .i32⟩ : BufTy).Contents (Elt F))
      = targets (F := F) (M (Proc.devRef .tc main_arg1)) := by
  simp only [before, hostOps0, hostOps0_1, hostOps0_2, List.flatten_cons, List.flatten_nil, List.append_nil, List.cons_append, List.nil_append]
  after_results_simp
  rfl

theorem before_coeff :
    (StableHlo.after (before (F := F)) M (Proc.devRef .tc main_v29) : (⟨S3300000, .f32⟩ : BufTy).Contents (Elt F))
      = edgeCoeff (F := F) (sources (F := F) (M (Proc.devRef .tc main_arg1))) (targets (F := F) (M (Proc.devRef .tc main_arg1))) := by
  simp only [before, hostOps0, hostOps0_1, hostOps0_2, List.flatten_cons, List.flatten_nil, List.append_nil, List.cons_append, List.nil_append]
  after_results_simp
  rfl

theorem before_weights :
    (StableHlo.after (before (F := F)) M (Proc.devRef .tc main_v30) : (⟨S256x128, .f32⟩ : BufTy).Contents (Elt F))
      = concatenate S256x128 1 [⟨S256x64, M (Proc.devRef .tc main_arg2)⟩, ⟨S256x64, M (Proc.devRef .tc main_arg4)⟩] concatenates_S256x64_S256x64_S256x128_d1 := by
  simp only [before, hostOps0, hostOps0_1, hostOps0_2, List.flatten_cons, List.flatten_nil, List.append_nil, List.cons_append, List.nil_append]
  after_results_simp
  rfl

end Before

/-! ## The lines after the region, over any contents at the region's exit -/

section After
variable (W : Valuation τ sig (Elt F))

/-- The first result: the propagation of the left 64 columns of the region's output, with the first bias. -/
theorem after_first :
    (StableHlo.after (hostOps1 (F := F)) W (Proc.devRef .tc main_v49) : (⟨S100000x64, .f32⟩ : BufTy).Contents (Elt F))
      = propagate (F := F) (extractStridedSlice S100000x64 ![0, 0] (W (Proc.devRef .tc main_v31)) slices_S100000x128_S100000x64_0_0)
          (W (Proc.devRef .tc main_v3)) (W (Proc.devRef .tc main_v6)) (W (Proc.devRef .tc main_v29)) (W (Proc.devRef .tc main_arg3)) := by
  after_results_simp
  rfl

/-- The second result: the propagation of the right 64 columns, with the second bias. -/
theorem after_second :
    (StableHlo.after (hostOps1 (F := F)) W (Proc.devRef .tc main_v65) : (⟨S100000x64, .f32⟩ : BufTy).Contents (Elt F))
      = propagate (F := F) (extractStridedSlice S100000x64 ![0, 64] (W (Proc.devRef .tc main_v31)) slices_S100000x128_S100000x64_0_64)
          (W (Proc.devRef .tc main_v3)) (W (Proc.devRef .tc main_v6)) (W (Proc.devRef .tc main_v29)) (W (Proc.devRef .tc main_arg5)) := by
  after_results_simp
  rfl

end After

end Cert.KernelHost

end
-- ==== Proof.KernelRun.lean ====
/-
  The kernel's program, run: its two results as `layer` of a matrix product.

  At the region's exit the region's output holds the whole product `x · [W_mu | W_ls]`, and every buffer the lines
  before the region wrote still holds what they wrote: the sources, the targets, the per-edge coefficients. The lines
  after the region propagate the left and the right 64 columns of that product. A window of columns of a product
  with two matrices side by side is the product with the matching matrix, so the first result is
  `layer (x · W_mu) ei b_mu` and the second `layer (x · W_ls) ei b_ls` — no property of the entries is used.
-/
import proofs.«170789_j29721173688331_1_alg».proof.Proof.Gen.KernelIdeal.Frame
import proofs.«170789_j29721173688331_1_alg».proof.Proof.KernelProduct
import proofs.«170789_j29721173688331_1_alg».proof.Proof.KernelHost
import Idealize.ShloMosaic.Lib.Pipeline.FrameSuffix

set_option maxRecDepth 16384

noncomputable section

namespace Cert.KernelRun

open Cert.KernelIdeal Cert.KernelIdeal.Gen Idealize.ShloMosaic Idealize.ShloMosaic.TcCoe Idealize.SL.Sem
open Cert.MatProd Cert.GraphTail
open Idealize.ShloMosaic.Pipeline (Dat)

variable (m : (ℓ : Loc nD τ sig) → Buf (Elt Ideal) ℓ) (ρ : Dev nD → PrngReg)

/-- Core `c`'s buffer contents at the region's exit: the region's arrays as the run leaves them, every other
    buffer as the lines before the region left it. -/
abbrev atExit (c : Dev nD) : Valuation τ sig (Elt Ideal) :=
  Pipeline.withArrays spec0 c (V0 m c) fun w => (dats m 0 c).arrAt w cfg0.N

/-- The two weight matrices side by side. -/
abbrev weights (c : Dev nD) : (⟨S256x128, .f32⟩ : BufTy).Contents (Elt Ideal) :=
  concatenate S256x128 1 [⟨S256x64, m ((c : Thread nD τ).loc main_arg2)⟩, ⟨S256x64, m ((c : Thread nD τ).loc main_arg4)⟩] concatenates_S256x64_S256x64_S256x128_d1

/-! ## The region's exit contents at the buffers the later lines read -/

theorem exit_product (c : Dev nD) :
    atExit m c (Proc.devRef .tc main_v31) = prod (m ((c : Thread nD τ).loc main_arg0)) (weights m c) := by
  refine (Pipeline.withArrays_arr spec0 launch0.win.arr_inj c (V0 m c) _ 2).trans ?_
  rw [KernelProduct.final, V_main_arg0]
  exact congrArg (prod (m ((c : Thread nD τ).loc main_arg0))) (KernelHost.before_weights (fun b => m (c, b)))

theorem exit_sources (c : Dev nD) :
    atExit m c (Proc.devRef .tc main_v3) = sources (F := Ideal) (m ((c : Thread nD τ).loc main_arg1)) :=
  (Pipeline.withArrays_of_ne spec0 c (V0 m c) _ main_v3 (by exact (by decide : ∀ w, Pipeline.arrRef spec0 w ≠ main_v3))).trans
    (KernelHost.before_sources (fun b => m (c, b)))

theorem exit_targets (c : Dev nD) :
    atExit m c (Proc.devRef .tc main_v6) = targets (F := Ideal) (m ((c : Thread nD τ).loc main_arg1)) :=
  (Pipeline.withArrays_of_ne spec0 c (V0 m c) _ main_v6 (by exact (by decide : ∀ w, Pipeline.arrRef spec0 w ≠ main_v6))).trans
    (KernelHost.before_targets (fun b => m (c, b)))

theorem exit_coeff (c : Dev nD) :
    atExit m c (Proc.devRef .tc main_v29)
      = edgeCoeff (F := Ideal) (sources (F := Ideal) (m ((c : Thread nD τ).loc main_arg1))) (targets (F := Ideal) (m ((c : Thread nD τ).loc main_arg1))) :=
  (Pipeline.withArrays_of_ne spec0 c (V0 m c) _ main_v29 (by exact (by decide : ∀ w, Pipeline.arrRef spec0 w ≠ main_v29))).trans
    (KernelHost.before_coeff (fun b => m (c, b)))

theorem exit_bias_first (c : Dev nD) : atExit m c (Proc.devRef .tc main_arg3) = m ((c : Thread nD τ).loc main_arg3) :=
  (Pipeline.withArrays_of_ne spec0 c (V0 m c) _ main_arg3 (by exact (by decide : ∀ w, Pipeline.arrRef spec0 w ≠ main_arg3))).trans
    (V_main_arg3 m c)

theorem exit_bias_second (c : Dev nD) : atExit m c (Proc.devRef .tc main_arg5) = m ((c : Thread nD τ).loc main_arg5) :=
  (Pipeline.withArrays_of_ne spec0 c (V0 m c) _ main_arg5 (by exact (by decide : ∀ w, Pipeline.arrRef spec0 w ≠ main_arg5))).trans
    (V_main_arg5 m c)

/-! ## The two results -/

/-- The first result: the propagation of `x · W_mu`. -/
theorem first (c : Dev nD) :
    Pipeline.afterTail₀ cfgs (dats m) 0 (V0 m) [hostOps1] c main_v49
      = layer (F := Ideal) (prod (m ((c : Thread nD τ).loc main_arg0)) (m ((c : Thread nD τ).loc main_arg2)))
          (m ((c : Thread nD τ).loc main_arg1)) (m ((c : Thread nD τ).loc main_arg3)) := by
  unfold Pipeline.afterTail₀
  show StableHlo.after hostOps1 (atExit m c) (Proc.devRef .tc main_v49) = _
  rw [KernelHost.after_first, exit_product, exit_sources, exit_targets, exit_coeff, exit_bias_first]
  rw [slice_prod_concat_left (m ((c : Thread nD τ).loc main_arg0)) (m ((c : Thread nD τ).loc main_arg2)) (m ((c : Thread nD τ).loc main_arg4))
    concatenates_S256x64_S256x64_S256x128_d1 rfl slices_S100000x128_S100000x64_0_0]
  rfl

/-- The second result: the propagation of `x · W_ls`. -/
theorem second (c : Dev nD) :
    Pipeline.afterTail₀ cfgs (dats m) 0 (V0 m) [hostOps1] c main_v65
      = layer (F := Ideal) (prod (m ((c : Thread nD τ).loc main_arg0)) (m ((c : Thread nD τ).loc main_arg4)))
          (m ((c : Thread nD τ).loc main_arg1)) (m ((c : Thread nD τ).loc main_arg5)) := by
  unfold Pipeline.afterTail₀
  show StableHlo.after hostOps1 (atExit m c) (Proc.devRef .tc main_v65) = _
  rw [KernelHost.after_second, exit_product, exit_sources, exit_targets, exit_coeff, exit_bias_second]
  rw [slice_prod_concat_right (m ((c : Thread nD τ).loc main_arg0)) (m ((c : Thread nD τ).loc main_arg2)) (m ((c : Thread nD τ).loc main_arg4))
    concatenates_S256x64_S256x64_S256x128_d1 rfl slices_S100000x128_S100000x64_0_64]
  rfl

/-! ## The run -/

/-- Every weakly fair execution of the kernel's program terminates with its two results at `layer` of the two
    products and its argument arrays unchanged. -/
theorem run : θ_run defs (onTc (τ := τ) (main (F := Ideal))) ⟨m, fun _ => 0, ρ⟩ (fun r => ∀ c : Dev nD,
      r.2.mem ((c.tc : Thread nD τ).loc main_v49)
        = layer (F := Ideal) (prod (m ((c : Thread nD τ).loc main_arg0)) (m ((c : Thread nD τ).loc main_arg2)))
            (m ((c : Thread nD τ).loc main_arg1)) (m ((c : Thread nD τ).loc main_arg3))
      ∧ r.2.mem ((c.tc : Thread nD τ).loc main_v65)
        = layer (F := Ideal) (prod (m ((c : Thread nD τ).loc main_arg0)) (m ((c : Thread nD τ).loc main_arg4)))
            (m ((c : Thread nD τ).loc main_arg1)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v49 (Pipeline.mem_restRefs_of main_v49 (by decide) (by decide))).trans (first m c),
      ((h c).2 main_v65 (Pipeline.mem_restRefs_of main_v65 (by decide) (by decide))).trans (second m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.lean ====
/-
  Two graph-convolution layers over one edge list, computed two ways, are the same two arrays over the extended reals.

  The node features `x` (100000 × 256), the edge list `ei` (2 × 3200000 node numbers), two weight matrices `W_mu`,
  `W_ls` (256 × 64) and two bias vectors go in; two arrays (100000 × 64) come out. Each output is
  `layer h ei b` (Proof/GraphTail.lean): the rows of a table `h` of transformed features gathered at the edges' sources
  (every node also being its own neighbour), scaled edge by edge by `1/√deg(source) · 1/√deg(target)`, summed at the
  targets, plus the bias.

    * The reference forms `h = x · W_mu` and `h = x · W_ls` by two matrix products.
    * The kernel's program sets the weight matrices side by side, forms the ONE product `x · [W_mu | W_ls]`
      (100000 × 128) block of 5000 rows by block on the device, and takes `h` to be its left and its right 64 columns.

  Entry `(r, q)` of `x · [W_mu | W_ls]` is `∑ k, x[r, k] · [W_mu | W_ls][k, q]`, and column `q` of the joined matrix is
  column `q` of `W_mu` for `q < 64` and column `q − 64` of `W_ls` beyond: the two programs' tables `h` are equal entry
  by entry, as the same sums of the same terms (Proof/LibMatProd.lean). Nothing is rearranged, so no entry needs to be
  finite, and the precondition is never opened. From there on both programs apply `layer` to equal arguments.

  The kernel's side: the region leaves the whole product (Proof/KernelProduct.lean), the host lines around it are
  read in Proof/KernelHost.lean, and Proof/KernelRun.lean joins them into the program's run. The reference's side:
  its run (Proof/RefRunPatched.lean) read as `layer` of a product (Proof/RefValue.lean). The device program as printed and
  its idealization differ by no rewrite at all, so nothing is owed for the step between them.
-/
import proofs.«170789_j29721173688331_1_alg».proof.Defs
import proofs.«170789_j29721173688331_1_alg».proof.Proof.Gen.Kernel
import proofs.«170789_j29721173688331_1_alg».proof.Proof.Gen.Kernel.Skeleton
import proofs.«170789_j29721173688331_1_alg».proof.Proof.Gen.Kernel.Launch
import proofs.«170789_j29721173688331_1_alg».proof.Proof.Gen.Kernel.Points
import proofs.«170789_j29721173688331_1_alg».proof.Proof.Gen.Kernel.Frame
import proofs.«170789_j29721173688331_1_alg».proof.Proof.Gen.KernelIdeal
import proofs.«170789_j29721173688331_1_alg».proof.Proof.Gen.KernelIdeal.Skeleton
import proofs.«170789_j29721173688331_1_alg».proof.Proof.Gen.KernelIdeal.Launch
import proofs.«170789_j29721173688331_1_alg».proof.Proof.Gen.KernelIdeal.Points
import proofs.«170789_j29721173688331_1_alg».proof.Proof.Gen.KernelIdeal.Frame
import proofs.«170789_j29721173688331_1_alg».proof.Proof.Gen.ReferenceIdeal
import proofs.«170789_j29721173688331_1_alg».proof.Proof.Gen.Pre_finite_inputs
import proofs.«170789_j29721173688331_1_alg».proof.Proof.RefRunPatched
import proofs.«170789_j29721173688331_1_alg».proof.Proof.RefValue
import proofs.«170789_j29721173688331_1_alg».proof.Proof.KernelRun
import Idealize.ShloMosaic.Adequacy
import Idealize.ShloMosaic.Init

noncomputable section

namespace Cert.Proof

open Idealize.ShloMosaic Idealize.ShloMosaic.TcCoe Idealize.SL.Sem

/-- The device program as printed runs, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the reference: its run, with what it says of the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- No operation was rewritten between the printed program and its idealization. -/
theorem preserves : Cert.preserves_Kernel_KernelIdeal := trivial

/-- From memories agreeing on the arguments both programs end with `layer (x · W_mu) ei b_mu` and
    `layer (x · W_ls) ei b_ls`. -/
theorem algebraic : Cert.algebraic_KernelIdeal_ReferenceIdeal := by
  intro m ρ m' ρ' _ hagree
  refine ⟨_, _, Cert.KernelRun.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.RefValue.first, (hagree c).1, (hagree c).2.1, (hagree c).2.2.1, (hagree c).2.2.2.1]
  · rw [Cert.RefValue.second, (hagree c).1, (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
